-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x1024 : Shape := ⟨2, ![4096, 1024]⟩
abbrev S1024 : Shape := ⟨1, ![1024]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S4x4096x4096 .f32) (main_arg1 : FVec F S4096x1024 .f32) (main_arg2 : FVec F S1024 .f32) (main_arg3 : FVec F S4096x1024 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_v13 main_v16
-- ==== Kernel.lean ====
abbrev S4x4096x4096 : Shape := ⟨3, ![4, 4096, 4096]⟩
abbrev S4096x1024 : Shape := ⟨2, ![4096, 1024]⟩
abbrev S1024 : Shape := ⟨1, ![1024]⟩
abbrev S1x1024 : Shape := ⟨2, ![1, 1024]⟩
abbrev S1024x4096 : Shape := ⟨2, ![1024, 4096]⟩
abbrev S1x256x4096 : Shape := ⟨3, ![1, 256, 4096]⟩
abbrev S256x4096 : Shape := ⟨2, ![256, 4096]⟩
abbrev S256x1024 : Shape := ⟨2, ![256, 1024]⟩

abbrev nBuf : Space → Nat
  | .hbm => 11
  | .vmem => 6
  | .smem => 0
  | _ => 0

abbrev bufTy : (tb : Table) → Fin (tcTables nBuf tb) → BufTy
  | .hbm, ⟨0, _⟩ => ⟨S4x4096x4096, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | .hbm, ⟨8, _⟩ => ⟨S1024x4096, .f32⟩
  | .hbm, ⟨9, _⟩ => ⟨S1024x4096, .bf16⟩
  | .hbm, ⟨10, _⟩ => ⟨S4x4096x4096, .f32⟩
  | .local _ .vmem, ⟨0, _⟩ => ⟨S1x256x4096, .f32⟩
  | .local _ .vmem, ⟨1, _⟩ => ⟨S1x256x4096, .f32⟩
  | .local _ .vmem, ⟨2, _⟩ => ⟨S4096x1024, .bf16⟩
  | .local _ .vmem, ⟨3, _⟩ => ⟨S1024x4096, .bf16⟩
  | .local _ .vmem, ⟨4, _⟩ => ⟨S1x256x4096, .f32⟩
  | .local _ .vmem, ⟨5, _⟩ => ⟨S1x256x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bitsLt_bf16_f32 : FTy.bits .bf16 < FTy.bits .f32
  transposes_S4096x1024_S1024x4096_1_0 : S4096x1024.Transposes [1, 0] S1024x4096
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  shapeCasts_S256x4096_S1x256x4096 : S256x4096.ShapeCasts S1x256x4096
  dot_S256x4096_S4096x1024_S256x1024_1_0_0_1_n_n_wf : DotDims.WF S256x4096 S4096x1024 S256x1024 [1] [0] [0] [1] [] []
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S4x4096x4096.size a
  hwx0_0 : ∀ i : grid0.Coords, EltTy.bits .f32 = 32 ∨ (Rect.block (s := S4x4096x4096) S1x256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .bf16 = 32 ∨ (Rect.block (s := S4096x1024) S4096x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x4096.size a ≤ S1024x4096.size a
  hwx0_2 : ∀ i : grid0.Coords, EltTy.bits .bf16 = 32 ∨ (Rect.block (s := S1024x4096) S1024x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x4096.size a ≤ S4x4096x4096.size a
  hwx0_3 : ∀ i : grid0.Coords, EltTy.bits .f32 = 32 ∨ (Rect.block (s := S4x4096x4096) S1x256x4096.size (cc0_transform_3 i) (hinb0_3 i)).WholeWords (EltTy.packing .f32)

variable [Facts₀]

def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf
def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S4096x1024 : Shape := ⟨2, ![4096, 1024]⟩
abbrev S1024 : Shape := ⟨1, ![1024]⟩
abbrev S1x1024 : Shape := ⟨2, ![1, 1024]⟩
abbrev S1024x4096 : Shape := ⟨2, ![1024, 4096]⟩
abbrev S4096x4096 : Shape := ⟨2, ![4096, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S1024x4096, .f32⟩
  | .hbm, ⟨8, _⟩ => ⟨S4096x4096, .f32⟩
  | .hbm, ⟨9, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  transposes_S4096x1024_S1024x4096_1_0 : S4096x1024.Transposes [1, 0] S1024x4096
  dot_S4096x1024_S1024x4096_S4096x4096_1_0_0_1_n_n_wf : DotDims.WF S4096x1024 S1024x4096 S4096x4096 [1] [0] [0] [1] [] []
  dot_S4x4096x4096_S4096x4096_S4x4096x4096_2_1_01_0_n_n_wf : DotDims.WF S4x4096x4096 S4096x4096 S4x4096x4096 [2] [1] [0, 1] [0] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf

class Facts : Prop extends Facts₀ where

variable [Facts]
-- ==== Proof.LibRealSums.lean ====
/-
  Finite sums of extended reals that are real numbers.

  On the extended reals a product does not distribute over a sum in general (at an infinity the
  sum may absorb a term). Where every entry is a real number it does: the coercion from the reals
  is additive and multiplicative, so a finite sum of real entries is the real sum, a real factor
  moves in and out of it, and a product of three real matrices may be bracketed either way,
  entry by entry.
-/
import Mathlib.Data.EReal.Basic
import Mathlib.Data.EReal.Operations
import Mathlib.Algebra.BigOperators.Ring.Finset
import Mathlib.Algebra.BigOperators.Fin

namespace Cert.Lib.RealSums

open scoped BigOperators

/-- An extended real that is a real number: neither infinity. -/
def IsReal (x : EReal) : Prop := ∃ r : ℝ, x = (r : EReal)

theorem isReal_coe (r : ℝ) : IsReal (r : EReal) := ⟨r, rfl⟩

theorem isReal_iff {x : EReal} : IsReal x ↔ x ≠ ⊤ ∧ x ≠ ⊥ := by
  constructor
  · rintro ⟨r, rfl⟩; exact ⟨EReal.coe_ne_top r, EReal.coe_ne_bot r⟩
  · rintro ⟨ht, hb⟩; exact ⟨x.toReal, (EReal.coe_toReal ht hb).symm⟩

theorem isReal_zero : IsReal 0 := ⟨0, by simp⟩
theorem isReal_one : IsReal 1 := ⟨1, by simp⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.max {x y : EReal} (hx : IsReal x) (hy : IsReal y) : IsReal (max x y) := by
  rcases le_total x y with h | h
  · rwa [max_eq_right h]
  · rwa [max_eq_left h]

/-- The coercion from the reals carries a finite sum to the finite sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A finite sum of real entries is a real number. -/
theorem isReal_sum {ι : Type*} (s : Finset ι) (f : ι → EReal) (hf : ∀ i ∈ s, IsReal (f i)) :
    IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- Entries that are all real are the coercions of one real family. -/
theorem exists_real_family {ι : Type*} (f : ι → EReal) (hf : ∀ i, IsReal (f i)) :
    ∃ g : ι → ℝ, ∀ i, f i = (g i : EReal) := ⟨fun i => (hf i).choose, fun i => (hf i).choose_spec⟩

/-- A real factor moves into a finite sum of real entries. -/
theorem mul_sum {ι : Type*} (s : Finset ι) (a : EReal) (f : ι → EReal) (ha : IsReal a)
    (hf : ∀ i, IsReal (f i)) : a * ∑ i ∈ s, f i = ∑ i ∈ s, a * f i := by
  obtain ⟨r, rfl⟩ := ha
  obtain ⟨g, hg⟩ := exists_real_family f hf
  simp only [hg, coe_sum, ← EReal.coe_mul, Finset.mul_sum]

/-- A real factor moves into a finite sum of real entries, from the right. -/
theorem sum_mul {ι : Type*} (s : Finset ι) (a : EReal) (f : ι → EReal) (ha : IsReal a)
    (hf : ∀ i, IsReal (f i)) : (∑ i ∈ s, f i) * a = ∑ i ∈ s, f i * a := by
  obtain ⟨r, rfl⟩ := ha
  obtain ⟨g, hg⟩ := exists_real_family f hf
  simp only [hg, coe_sum, ← EReal.coe_mul, Finset.sum_mul]

/-- Three real matrices: the product may be bracketed either way, entry by entry.
    `∑ j, (∑ k, h k * z k j) * w j = ∑ k, h k * ∑ j, z k j * w j` for one row `h` and one column `w`. -/
theorem dot_assoc {κ ι : Type*} [Fintype κ] [Fintype ι] (h : κ → EReal) (z : κ → ι → EReal) (w : ι → EReal)
    (hh : ∀ k, IsReal (h k)) (hz : ∀ k j, IsReal (z k j)) (hw : ∀ j, IsReal (w j)) :
    ∑ j, (∑ k, h k * z k j) * w j = ∑ k, h k * ∑ j, z k j * w j := by
  obtain ⟨h', eh⟩ := exists_real_family h hh
  obtain ⟨w', ew⟩ := exists_real_family w hw
  have ez : ∀ k, ∃ g : ι → ℝ, ∀ j, z k j = (g j : EReal) := fun k => exists_real_family (z k) (hz k)
  choose z' ez' using ez
  simp only [eh, ew, ez', ← EReal.coe_mul, coe_sum]
  congr 1
  simp only [Finset.sum_mul, Finset.mul_sum]
  rw [Finset.sum_comm]
  exact Finset.sum_congr rfl fun k _ => Finset.sum_congr rfl fun j _ => by ring

/-- A real row against a sum of two real columns. -/
theorem dot_add {κ : Type*} [Fintype κ] (h a b : κ → EReal)
    (hh : ∀ k, IsReal (h k)) (ha : ∀ k, IsReal (a k)) (hb : ∀ k, IsReal (b k)) :
    ∑ k, h k * (a k + b k) = ∑ k, h k * a k + ∑ k, h k * b k := by
  obtain ⟨h', eh⟩ := exists_real_family h hh
  obtain ⟨a', ea⟩ := exists_real_family a ha
  obtain ⟨b', eb⟩ := exists_real_family b hb
  simp only [eh, ea, eb, ← EReal.coe_add, ← EReal.coe_mul, coe_sum]
  congr 1
  rw [← Finset.sum_add_distrib]
  exact Finset.sum_congr rfl fun k _ => by ring

end Cert.Lib.RealSums
-- ==== Proof.Spec.lean ====
/-
  The low-rank linear map, as one function of its four arrays.

  With x of shape [4, 4096, 4096], U and V of shape [4096, 1024] and s of length 1024, the weight matrix is
  W (o, i) = Σ r, (U (o, r) · s r) · V (i, r), and the result at (b, t, o) is Σ i, x (b, t, i) · W (o, i): `lowRank`.

  The same number is reached without ever forming W: first y (r) = Σ i, x (b, t, i) · (V (i, r) · s r), then
  Σ r, y (r) · U (o, r): `factored`. The two are the two bracketings of a product of three matrices (a row of x, the
  matrix V · diag s, a row of U), so they agree entry by entry once every entry is a real number — on the extended reals
  a factor moves across a sum only away from the infinities, which is where the entries' finiteness is used. Inside one
  term only commutativity and associativity of the product are needed, and those hold on all extended reals.
-/
import Idealize.ShloMosaic.PureOps.Ideal
import Idealize.ShloMosaic.Lib.ValueIdx
import proofs.«111482_j70729521431228_2_alg».proof.Proof.LibRealSums

noncomputable section

open scoped BigOperators

namespace Cert.LowRank

open Idealize.ShloMosaic Idealize.ShloMosaic.ValueIdx Cert.Lib.RealSums

/-- The shape of x and of the result. -/
abbrev SX : Shape := ⟨3, ![4, 4096, 4096]⟩
/-- The shape of U and of V. -/
abbrev SW : Shape := ⟨2, ![4096, 1024]⟩
/-- The shape of s. -/
abbrev SS : Shape := ⟨1, ![1024]⟩

/-- The result with the weight matrix formed first: row (b, t) of x against row o of W = U · diag s · Vᵀ. -/
def lowRank (x : SX.Idx → EReal) (U : SW.Idx → EReal) (s : SS.Idx → EReal) (V : SW.Idx → EReal) : SX.Idx → EReal :=
  fun j => ∑ i : Fin 4096, x (ix3 (j 0) (j 1) i) * ∑ r : Fin 1024, (U (ix2 (j 2) r) * s (ix1 r)) * V (ix2 i r)

/-- The result through the rank-1024 bottleneck: row (b, t) of x against V · diag s, then against row o of U. -/
def factored (x : SX.Idx → EReal) (U : SW.Idx → EReal) (s : SS.Idx → EReal) (V : SW.Idx → EReal) : SX.Idx → EReal :=
  fun j => ∑ r : Fin 1024, (∑ i : Fin 4096, x (ix3 (j 0) (j 1) i) * (V (ix2 i r) * s (ix1 r))) * U (ix2 (j 2) r)

/-- Inside one term the three factors may be taken in either order, on all extended reals. -/
theorem term_comm (u s v : EReal) : (v * s) * u = (u * s) * v := by
  rw [mul_comm (v * s) u, mul_comm v s, ← mul_assoc]

/-- For real entries the two bracketings agree. -/
theorem factored_eq_lowRank (x : SX.Idx → EReal) (U : SW.Idx → EReal) (s : SS.Idx → EReal) (V : SW.Idx → EReal)
    (hx : ∀ j, IsReal (x j)) (hU : ∀ j, IsReal (U j)) (hs : ∀ j, IsReal (s j)) (hV : ∀ j, IsReal (V j)) :
    factored x U s V = lowRank x U s V := by
  funext j
  unfold factored lowRank
  rw [dot_assoc (fun i : Fin 4096 => x (ix3 (j 0) (j 1) i)) (fun (i : Fin 4096) (r : Fin 1024) => V (ix2 i r) * s (ix1 r))
    (fun r : Fin 1024 => U (ix2 (j 2) r)) (fun i => hx _) (fun i r => (hV _).mul (hs _)) (fun r => hU _)]
  refine Finset.sum_congr rfl fun i _ => congrArg (x (ix3 (j 0) (j 1) i) * ·) ?_
  exact Finset.sum_congr rfl fun r _ => term_comm _ _ _

end Cert.LowRank

end
-- ==== Proof.RefValue.lean ====
/-
  The reference computes `lowRank`.

  Its six operations, read at an index: s is laid along the rows of a [4096, 1024] array and multiplied into U entry by
  entry; V is transposed; the first contraction runs over the rank coordinate r and gives the weight matrix
  W (o, i) = Σ r, (U (o, r) · s r) · V (i, r); the second runs over the input coordinate i and gives
  Σ i, x (b, t, i) · W (o, i). That is `lowRank` as written, so nothing about the entries is assumed here.
-/
import proofs.«111482_j70729521431228_2_alg».proof.Proof.Gen.ReferenceIdeal.Read
import proofs.«111482_j70729521431228_2_alg».proof.Proof.Spec

noncomputable section

open scoped BigOperators

namespace Cert.LowRank.Reference

open Idealize.ShloMosaic Idealize.ShloMosaic.ValueIdx Cert.ReferenceIdeal Cert.ReferenceIdeal.Read Cert.LowRank

/-- The reference's last stage, as a function of the four argument arrays, is `lowRank`. -/
theorem stage_eq (x : (⟨S4x4096x4096, .f32⟩ : BufTy).Contents (Elt Ideal)) (U : (⟨S4096x1024, .f32⟩ : BufTy).Contents (Elt Ideal))
    (s : (⟨S1024, .f32⟩ : BufTy).Contents (Elt Ideal)) (V : (⟨S4096x1024, .f32⟩ : BufTy).Contents (Elt Ideal)) :
    val_main_v5 (F := Ideal) x U s V = lowRank x U s V := by
  funext j
  rw [val_main_v5_apply]
  unfold lowRank
  refine Finset.sum_congr rfl fun i _ => ?_
  have ex : lidx_main_v5 j i = ix3 (j 0) (j 1) i :=
    funext fun a => Fin.ext (by match a with | ⟨0, _⟩ => rfl | ⟨1, _⟩ => rfl | ⟨2, _⟩ => rfl)
  rw [ex, val_main_v4_apply]
  refine congrArg (x (ix3 (j 0) (j 1) i) * ·) (Finset.sum_congr rfl fun r _ => ?_)
  rw [val_main_v2_apply, val_main_v1_apply, val_main_v0_apply, val_main_v3_apply]
  have eU : lidx_main_v4 (ridx_main_v5 j i) r = ix2 (j 2) r :=
    funext fun a => Fin.ext (by match a with | ⟨0, _⟩ => rfl | ⟨1, _⟩ => rfl)
  have es : idx_main_v0 (idx_main_v1 (ix2 (j 2) r)) = ix1 r :=
    funext fun a => Fin.ext (by match a with | ⟨0, _⟩ => rfl)
  have eV : idx_main_v3 (ridx_main_v4 (ridx_main_v5 j i) r) = ix2 i r :=
    funext fun a => Fin.ext (by match a with | ⟨0, _⟩ => rfl | ⟨1, _⟩ => rfl)
  rw [eU, es, eV]
  rfl

end Cert.LowRank.Reference

end
-- ==== Proof.Finite.lean ====
/-
  Under the precondition every entry of the four arrays is a real number.

  The precondition tests, for each array, that the absolute value of every entry is below +∞, and joins the four tests
  by `and`. On the extended reals |x| = max x (−x) is +∞ exactly at the two infinities, so an entry that passes the
  test is neither: it is a real number.
-/
import proofs.«111482_j70729521431228_2_alg».proof.Pre_finite_inputs
import proofs.«111482_j70729521431228_2_alg».proof.Proof.Gen.Pre_finite_inputs
import proofs.«111482_j70729521431228_2_alg».proof.Proof.LibRealSums
import Idealize.ShloMosaic.PureOps.Ideal.Laws
import Idealize.ShloMosaic.Lib.ReduceAll
import Idealize.ShloMosaic.Lib.Affine
import Idealize.ShloMosaic.Lib.ValueIdx

noncomputable section

namespace Cert.LowRank.Finite

open Idealize.ShloMosaic Idealize.ShloMosaic.ValueIdx Cert.Lib.RealSums Cert.Pre_finite_inputs

/-- An extended real whose absolute value is below +∞ is a real number. -/
theorem isReal_of_abs_lt_top (x : EReal)
    (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  have hlt : max x (-x) < ⊤ := by
    by_contra hn
    have h0 : Ideal.cmp .olt (max x (-x)) ⊤ = 0#1 := by simp [Ideal.cmp, hn]
    rw [h0] at h
    exact absurd h (by decide)
  rw [isReal_iff]
  refine ⟨?_, ?_⟩
  · rintro rfl; simp at hlt
  · rintro rfl; simp at hlt

/-- The scalar shape has one index. -/
instance : Subsingleton S_.Idx := ⟨fun a b => funext fun d => d.elim0⟩

/-- One array's test: if "every |entry| is below +∞" reduces to true, every entry is a real number. -/
theorem all_real {S : Shape} (x : FVec Ideal S .f32) (hb : S_.BroadcastsInDim S (![] : Fin 0 → Fin S.rank))
    {axes : List (Fin S.rank)} (hr : S.ReducesTo axes S_) (hu : 0 < S_.numel)
    (h : Host.reduce IntOp.andi (cmpf .olt (Host.absf x) (broadcastInDim S ![] hb (constant (F := Ideal) S_ .f32 0x7F800000#32)))
      (constantI S_ 1 1#1) hr hu ix0 = 1#1) (j : S.Idx) : IsReal (x j) :=
  isReal_of_abs_lt_top (x j) (Host.reduce_andi_all _ _ hr hu ix0 h j)

/-- The precondition, read: all four arrays hold real numbers. -/
theorem entries_real (x : FVec Ideal S4x4096x4096 .f32) (U : FVec Ideal S4096x1024 .f32) (s : FVec Ideal S1024 .f32)
    (V : FVec Ideal S4096x1024 .f32) (h : fn (F := Ideal) x U s V = fun _ => 1#1) :
    (∀ j, IsReal (x j)) ∧ (∀ j, IsReal (U j)) ∧ (∀ j, IsReal (s j)) ∧ (∀ j, IsReal (V j)) := by
  have h0 := congrFun h ix0
  dsimp only [fn, fn_part1] at h0
  obtain ⟨h123, h4⟩ := IntOp.andi_eq_one.mp h0
  obtain ⟨h12, h3⟩ := IntOp.andi_eq_one.mp h123
  obtain ⟨h1, h2⟩ := IntOp.andi_eq_one.mp h12
  exact ⟨all_real x _ _ _ h1, all_real U _ _ _ h2, all_real s _ _ _ h3, all_real V _ _ _ h4⟩

end Cert.LowRank.Finite

end
-- ==== Proof.LibPlainDot.lean ====
/-
  A plain matrix product read at an index, on the extended reals.

  For dimension numbers that contract the left operand's second axis against the right operand's first — an
  [M, K] array times a [K, P] array — the product into a zero accumulator, read at row `p` and column `q`, is
  `Σ k, l (p, k) · r (k, q)` over the K contraction coordinates. The contraction's index set has one axis; the sum is
  re-indexed through that axis's coordinate. The two facts about the free axes (the left index keeps the row, the right
  index keeps the column) are taken as hypotheses, since for given dimension numbers they hold by computation.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The matrix product into the zero accumulator at (p, q) is the sum over the contraction coordinate of the left
    operand at (p, k) times the right operand at (k, q). -/
theorem matmul_zero_apply {M K P : ℕ} {φ₁ φ₂ : FTy}
    (D : DotDims ⟨2, ![M, K]⟩ ⟨2, ![K, P]⟩ ⟨2, ![M, P]⟩)
    (hlc : D.lhsContracting = [1]) (hrc : D.rhsContracting = [0])
    (hl0 : ∀ (j : (⟨2, ![M, P]⟩ : Shape).Idx) (c : D.contr.Idx), (D.lhsIdx j c 0).val = (j 0).val)
    (hr1 : ∀ (j : (⟨2, ![M, P]⟩ : Shape).Idx) (c : D.contr.Idx), (D.rhsIdx j c 1).val = (j 1).val)
    (hrank : D.contr.rank = 1) (hsize : D.contr.size ⟨0, by omega⟩ = K)
    (prec : Option ContractPrecision)
    (l : FVec Ideal ⟨2, ![M, K]⟩ φ₁) (r : FVec Ideal ⟨2, ![K, P]⟩ φ₂) (p : Fin M) (q : Fin P) :
    FloatOps.matmul D prec l r (constant ⟨2, ![M, P]⟩ .f32 0x00000000#32) (ix2 p q)
      = ∑ k : Fin K, l (ix2 p k) * r (ix2 k q) := by
  rw [Ideal.matmul_constant_zero_apply, ← Equiv.sum_comp (contrEquiv1 D K hrank hsize).symm]
  refine Finset.sum_congr rfl fun k _ => ?_
  have hk := contrEquiv1_symm_val D K hrank hsize k
  have el : D.lhsIdx (ix2 p q) ((contrEquiv1 D K hrank hsize).symm k) = ix2 p k := funext fun a => Fin.ext (by
    match a with
    | ⟨0, _⟩ => exact hl0 _ _
    | ⟨1, _⟩ => exact (D.lhsIdx_val_of_single hlc _ _).trans hk)
  have er : D.rhsIdx (ix2 p q) ((contrEquiv1 D K hrank hsize).symm k) = ix2 k q := funext fun a => Fin.ext (by
    match a with
    | ⟨0, _⟩ => exact (D.rhsIdx_val_of_single hrc _ _).trans hk
    | ⟨1, _⟩ => exact hr1 _ _)
  rw [el, er]

end Cert.LibPlainDot

end
-- ==== Proof.Payload.lean ====
/-
  What the body stores, entry by entry.

  At one grid point the body holds a [1, 256, 4096] block of x (256 rows of one batch), the whole [4096, 1024] array
  Vs = V · diag s and the whole [1024, 4096] array Ut = Uᵀ. It drops the block's unit axis, multiplies the 256 rows
  into Vs (a product into a zero accumulator), multiplies the [256, 1024] result into Ut (again into zero), and puts
  the unit axis back. On the extended reals a change of float format is the identity, so the stored value at
  (0, p, o) is Σ r, (Σ i, block (0, p, i) · Vs (i, r)) · Ut (r, o).
-/
import proofs.«111482_j70729521431228_2_alg».proof.Proof.Gen.KernelIdeal.Skeleton
import proofs.«111482_j70729521431228_2_alg».proof.Proof.LibPlainDot
import Idealize.ShloMosaic.Lib.Pipeline.Value
import Idealize.ShloMosaic.Lib.ValueIdx
import Idealize.ShloMosaic.PureOps.Ideal.Laws

noncomputable section

open scoped BigOperators

namespace Cert.LowRank.Body

open Idealize.ShloMosaic Idealize.ShloMosaic.ValueIdx Cert.KernelIdeal Cert.KernelIdeal.Gen Cert.LibPlainDot

/-- The first product's left index keeps the row. -/
theorem first_row (j : S256x1024.Idx) (q : dot_S256x4096_S4096x1024_S256x1024_1_0_0_1_n_n.contr.Idx) :
    (dot_S256x4096_S4096x1024_S256x1024_1_0_0_1_n_n.lhsIdx j q 0).val = (j 0).val := by
  unfold DotDims.lhsIdx
  rw [dif_neg (show ¬(0 : Fin S256x4096.rank) ∈ dot_S256x4096_S4096x1024_S256x1024_1_0_0_1_n_n.lhsBatch by decide),
    dif_pos (show (0 : Fin S256x4096.rank) ∈ dot_S256x4096_S4096x1024_S256x1024_1_0_0_1_n_n.lhsNonContracting by decide)]
  rfl

/-- The first product's right index keeps the column. -/
theorem first_col (j : S256x1024.Idx) (q : dot_S256x4096_S4096x1024_S256x1024_1_0_0_1_n_n.contr.Idx) :
    (dot_S256x4096_S4096x1024_S256x1024_1_0_0_1_n_n.rhsIdx j q 1).val = (j 1).val := by
  unfold DotDims.rhsIdx
  rw [dif_neg (show ¬(1 : Fin S4096x1024.rank) ∈ dot_S256x4096_S4096x1024_S256x1024_1_0_0_1_n_n.rhsBatch by decide),
    dif_pos (show (1 : Fin S4096x1024.rank) ∈ dot_S256x4096_S4096x1024_S256x1024_1_0_0_1_n_n.rhsNonContracting by decide)]
  rfl

/-- The second product's left index keeps the row. -/
theorem second_row (j : S256x4096.Idx) (q : dot_S256x1024_S1024x4096_S256x4096_1_0_0_1_n_n.contr.Idx) :
    (dot_S256x1024_S1024x4096_S256x4096_1_0_0_1_n_n.lhsIdx j q 0).val = (j 0).val := by
  unfold DotDims.lhsIdx
  rw [dif_neg (show ¬(0 : Fin S256x1024.rank) ∈ dot_S256x1024_S1024x4096_S256x4096_1_0_0_1_n_n.lhsBatch by decide),
    dif_pos (show (0 : Fin S256x1024.rank) ∈ dot_S256x1024_S1024x4096_S256x4096_1_0_0_1_n_n.lhsNonContracting by decide)]
  rfl

/-- The second product's right index keeps the column. -/
theorem second_col (j : S256x4096.Idx) (q : dot_S256x1024_S1024x4096_S256x4096_1_0_0_1_n_n.contr.Idx) :
    (dot_S256x1024_S1024x4096_S256x4096_1_0_0_1_n_n.rhsIdx j q 1).val = (j 1).val := by
  unfold DotDims.rhsIdx
  rw [dif_neg (show ¬(1 : Fin S1024x4096.rank) ∈ dot_S256x1024_S1024x4096_S256x4096_1_0_0_1_n_n.rhsBatch by decide),
    dif_pos (show (1 : Fin S1024x4096.rank) ∈ dot_S256x1024_S1024x4096_S256x4096_1_0_0_1_n_n.rhsNonContracting by decide)]
  rfl

/-- Two products in a row, each into a zero accumulator, at (p, o): the double sum. -/
theorem two_products (a : FVec Ideal S256x4096 .bf16) (b : FVec Ideal S4096x1024 .bf16) (c : FVec Ideal S1024x4096 .bf16)
    (p : Fin 256) (o : Fin 4096) :
    matmul dot_S256x1024_S1024x4096_S256x4096_1_0_0_1_n_n none
        (truncf .bf16 (matmul dot_S256x4096_S4096x1024_S256x1024_1_0_0_1_n_n none a b (constant (F := Ideal) S256x1024 .f32 0x00000000#32)) bitsLt_bf16_f32)
        c (constant (F := Ideal) S256x4096 .f32 0x00000000#32) (ix2 p o)
      = ∑ r : Fin 1024, (∑ i : Fin 4096, a (ix2 p i) * b (ix2 i r)) * c (ix2 r o) := by
  refine (matmul_zero_apply dot_S256x1024_S1024x4096_S256x4096_1_0_0_1_n_n rfl rfl second_row second_col rfl rfl none _ c p o).trans ?_
  refine Finset.sum_congr rfl fun r _ => congrArg (· * c (ix2 r o)) ?_
  exact matmul_zero_apply dot_S256x4096_S4096x1024_S256x1024_1_0_0_1_n_n rfl rfl first_row first_col rfl rfl none a b p r

/-- The body's stored value at an index of its [1, 256, 4096] block. -/
theorem stored_apply (v0 : Vec Ideal S1x256x4096 .f32) (v3 : Vec Ideal S4096x1024 .bf16) (v7 : Vec Ideal S1024x4096 .bf16)
    (j : S1x256x4096.Idx) :
    k0_pay1 (F := Ideal) v0 v3 v7 j
      = ∑ r : Fin 1024, (∑ i : Fin 4096, v0 (ix3 (j 0) (j 1) i) * v3 (ix2 i r)) * v7 (ix2 r (j 2)) := by
  unfold k0_pay1
  refine (shapeCast_addUnit_apply ![256, 4096] _ shapeCasts_S256x4096_S1x256x4096 j).trans ?_
  have ej : (fun a : Fin 2 => j a.succ) = ix2 (j 1) (j 2) :=
    funext fun a => by match a with | ⟨0, _⟩ => rfl | ⟨1, _⟩ => rfl
  rw [ej, shapeCast_self, shapeCast_self]
  refine (two_products _ v3 v7 (j 1) (j 2)).trans ?_
  refine Finset.sum_congr rfl fun r _ => congrArg (· * v7 (ix2 r (j 2))) ?_
  refine Finset.sum_congr rfl fun i _ => congrArg (· * v3 (ix2 i r)) ?_
  refine (shapeCast_dropUnit_apply ![256, 4096] v0 shapeCasts_S1x256x4096_S256x4096 (ix2 (j 1) i)).trans ?_
  refine congrArg v0 (funext fun a => Fin.ext ?_)
  match a with
  | ⟨0, _⟩ => have := (j 0).isLt; show 0 = (j 0).val; simp at this; omega
  | ⟨1, _⟩ => rfl
  | ⟨2, _⟩ => rfl

end Cert.LowRank.Body

end
-- ==== Proof.Prefix.lean ====
/-
  What the region finds in the two arrays the host prepares.

  Before the region, s is laid along the rows of a [4096, 1024] array and multiplied into V entry by entry, giving
  Vs (i, r) = V (i, r) · s r; and U is transposed, giving Ut (r, o) = U (o, r). Both are then converted to a narrower
  float format, which on the extended reals changes nothing.
-/
import proofs.«111482_j70729521431228_2_alg».proof.Proof.Gen.KernelIdeal.Frame
import Idealize.ShloMosaic.Lib.StableHlo.Run
import Idealize.ShloMosaic.Lib.Pipeline.Value
import Idealize.ShloMosaic.Lib.ValueIdx

noncomputable section

namespace Cert.LowRank.Prefix

open Idealize.ShloMosaic Idealize.ShloMosaic.TcCoe Idealize.ShloMosaic.ValueIdx Idealize.SL.Sem
open Cert.KernelIdeal Cert.KernelIdeal.Gen

/-- A vector laid along the rows and multiplied into a matrix, read at (i, r): the entry times the vector's r-th. -/
theorem scale_columns_apply (V : FVec Ideal S4096x1024 .f32) (s : FVec Ideal S1024 .f32) (i : Fin 4096) (r : Fin 1024) :
    (truncf .bf16 (mulf V (broadcastInDim S4096x1024 ![0, 1] bcast_S1x1024_S4096x1024_0_1
        (broadcastInDim S1x1024 ![1] bcast_S1024_S1x1024_1 s))) bitsLt_bf16_f32 : FVec Ideal S4096x1024 .bf16) (ix2 i r)
      = V (ix2 i r) * s (ix1 r) := by
  show V (ix2 i r) * _ = _
  refine congrArg (V (ix2 i r) * ·) ?_
  refine (broadcastInDim_apply _ bcast_S1x1024_S4096x1024_0_1 _ (ix2 i r) (ix2 (0 : Fin 1) r) (fun a => match a with
    | ⟨0, _⟩ => by show 0 = if (1 : Nat) = 1 then 0 else i.val; rw [if_pos rfl]
    | ⟨1, _⟩ => by show r.val = if (1024 : Nat) = 1 then 0 else r.val; rw [if_neg (by decide)])).trans ?_
  exact broadcastInDim_apply _ bcast_S1024_S1x1024_1 s (ix2 (0 : Fin 1) r) (ix1 r) (fun a => match a with
    | ⟨0, _⟩ => by show r.val = if (1024 : Nat) = 1 then 0 else r.val; rw [if_neg (by decide)])

/-- A transposed matrix read at (r, o): the matrix at (o, r). -/
theorem transposed_apply (U : FVec Ideal S4096x1024 .f32) (r : Fin 1024) (o : Fin 4096) :
    (truncf .bf16 (transpose S1024x4096 [1, 0] U transposes_S4096x1024_S1024x4096_1_0) bitsLt_bf16_f32 : FVec Ideal S1024x4096 .bf16) (ix2 r o)
      = U (ix2 o r) := by
  show transpose S1024x4096 [1, 0] U transposes_S4096x1024_S1024x4096_1_0 (ix2 r o) = _
  exact transpose_apply [1, 0] U transposes_S4096x1024_S1024x4096_1_0 (ix2 r o) (ix2 o r) (fun b => match b with
    | ⟨0, _⟩ => rfl
    | ⟨1, _⟩ => rfl)

variable (m : (ℓ : Loc nD τ sig) → Buf (Elt Ideal) ℓ)

/-- The argument x on core `c`, as an array of extended reals. -/
abbrev argX (c : Dev nD) : FVec Ideal S4x4096x4096 .f32 := m ((c : Thread nD τ).loc main_arg0)
/-- The argument U. -/
abbrev argU (c : Dev nD) : FVec Ideal S4096x1024 .f32 := m ((c : Thread nD τ).loc main_arg1)
/-- The argument s. -/
abbrev argS (c : Dev nD) : FVec Ideal S1024 .f32 := m ((c : Thread nD τ).loc main_arg2)
/-- The argument V. -/
abbrev argV (c : Dev nD) : FVec Ideal S4096x1024 .f32 := m ((c : Thread nD τ).loc main_arg3)
/-- The array V · diag s as the region finds it. -/
abbrev scaledArr (c : Dev nD) : FVec Ideal S4096x1024 .bf16 := V m c main_v3
/-- The array Uᵀ as the region finds it. -/
abbrev transposedArr (c : Dev nD) : FVec Ideal S1024x4096 .bf16 := V m c main_v5

/-- The scaled array is the host's three operations on V and s. -/
theorem scaled_eq (c : Dev nD) : scaledArr m c
    = truncf .bf16 (mulf (argV m c) (broadcastInDim S4096x1024 ![0, 1] bcast_S1x1024_S4096x1024_0_1
        (broadcastInDim S1x1024 ![1] bcast_S1024_S1x1024_1 (argS m c)))) bitsLt_bf16_f32 := by
  dsimp only [scaledArr, argV, argS, Gen.V, Gen.hostOps0]; after_results

/-- The transposed array is the host's two operations on U. -/
theorem transposed_eq (c : Dev nD) : transposedArr m c
    = truncf .bf16 (transpose S1024x4096 [1, 0] (argU m c) transposes_S4096x1024_S1024x4096_1_0) bitsLt_bf16_f32 := by
  dsimp only [transposedArr, argU, Gen.V, Gen.hostOps0]; after_results

/-- Vs (i, r) = V (i, r) · s r. -/
theorem scaled_apply (c : Dev nD) (i : Fin 4096) (r : Fin 1024) :
    scaledArr m c (ix2 i r) = argV m c (ix2 i r) * argS m c (ix1 r) := by
  rw [scaled_eq]
  exact scale_columns_apply _ _ i r

/-- Ut (r, o) = U (o, r). -/
theorem transposed_at (c : Dev nD) (r : Fin 1024) (o : Fin 4096) :
    transposedArr m c (ix2 r o) = argU m c (ix2 o r) := by
  rw [transposed_eq]
  exact transposed_apply _ r o

end Cert.LowRank.Prefix

end
-- ==== Proof.Blocks.lean ====
/-
  From what each grid point writes to the whole result array.

  The grid has 4 × 16 points; point (b, t) holds rows 256 t … 256 t + 255 of batch b of x, and the whole of the two
  prepared arrays V · diag s and Uᵀ, and writes rows 256 t … 256 t + 255 of batch b of the result. What it writes
  is `factored` of the four arguments read through that block: the block of x sits where the output's block sits on
  the first two axes and spans the whole third axis, and the two prepared arrays are read whole. The 64 output blocks
  tile the result array (row ρ of batch b lies in the block of point (b, ρ / 256)), so after the run the result array
  is `factored` of the arguments.
-/
import proofs.«111482_j70729521431228_2_alg».proof.Proof.Gen.KernelIdeal.Value
import proofs.«111482_j70729521431228_2_alg».proof.Proof.Spec
import proofs.«111482_j70729521431228_2_alg».proof.Proof.Payload
import proofs.«111482_j70729521431228_2_alg».proof.Proof.Prefix
import Idealize.ShloMosaic.Lib.Pipeline.Value

set_option maxRecDepth 16384

noncomputable section

open scoped BigOperators

namespace Cert.LowRank.Blocks

open Idealize.ShloMosaic Idealize.ShloMosaic.TcCoe Idealize.ShloMosaic.ValueIdx Idealize.SL.Sem
open Idealize.ShloMosaic.Pipeline (Dat)
open Cert.KernelIdeal Cert.KernelIdeal.Gen Cert.LowRank Cert.LowRank.Prefix Cert.LowRank.Body

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-- The index maps over the 64 points: the block of x moves with the output's block on the batch and row axes and
    sits at 0 on the last axis, as does the output's; the two prepared arrays' blocks sit at the origin. -/
theorem index_facts : ∀ t : Fin cfg0.N,
    win0_0.index t (0 : Fin 3) = win0_3.index t (0 : Fin 3) ∧ win0_0.index t (1 : Fin 3) = win0_3.index t (1 : Fin 3)
    ∧ win0_0.index t (2 : Fin 3) = 0 ∧ win0_3.index t (2 : Fin 3) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- Every (batch, row block) pair is some point's output block. -/
theorem index_onto : ∀ (q0 : Fin 4) (q1 : Fin 16), ∃ t : Fin cfg0.N, win0_3.index t = ![q0.val, q1.val, 0] :=
  (by decide +kernel : ∀ (q0 : Fin 4) (q1 : Fin 16), ∃ t : Fin grid0.N, win0_3.index t = ![q0.val, q1.val, 0])

/-- The block of x at point `t`, read at `y`, is x at the index whose coordinates are the block's offset plus `y`'s. -/
theorem x_block_at (c : Dev nD) (t : Fin cfg0.N) (y : S1x256x4096.Idx) (k : S4x4096x4096.Idx)
    (h0 : win0_0.index t (0 : Fin 3) * 1 + 1 * (y 0).val = (k 0).val)
    (h1 : win0_0.index t (1 : Fin 3) * 256 + 1 * (y 1).val = (k 1).val)
    (h2 : win0_0.index t (2 : Fin 3) * 4096 + 1 * (y 2).val = (k 2).val) :
    (iblk m c 0 t : Vec Ideal S1x256x4096 .f32) y = argX m c k := by
  unfold iblk
  rw [View.read_apply]
  show V m c main_arg0 (((cfg0.win 0).blk t).view.emb y) = _
  rw [V_main_arg0 m c]
  refine congrArg (argX m c) (funext fun a => Fin.ext ?_)
  match a with
  | ⟨0, _⟩ => exact h0
  | ⟨1, _⟩ => exact h1
  | ⟨2, _⟩ => exact h2

/-- The block of V · diag s at any point is the whole array. -/
theorem scaled_block_at (c : Dev nD) (t : Fin cfg0.N) (y : S4096x1024.Idx) :
    (iblk m c 1 t : Vec Ideal S4096x1024 .bf16) y = scaledArr m c y := by
  obtain ⟨-, -, -, -, e0, e1, -, -⟩ := index_facts t
  unfold iblk
  rw [View.read_apply]
  show V m c main_v3 (((cfg0.win 1).blk t).view.emb y) = _
  refine congrArg (scaledArr m c) (funext fun a => Fin.ext ?_)
  match a with
  | ⟨0, _⟩ => show win0_1.index t (0 : Fin 2) * 4096 + 1 * (y 0).val = (y 0).val; omega
  | ⟨1, _⟩ => show win0_1.index t (1 : Fin 2) * 1024 + 1 * (y 1).val = (y 1).val; omega

/-- The block of Uᵀ at any point is the whole array. -/
theorem transposed_block_at (c : Dev nD) (t : Fin cfg0.N) (y : S1024x4096.Idx) :
    (iblk m c 2 t : Vec Ideal S1024x4096 .bf16) y = transposedArr m c y := by
  obtain ⟨-, -, -, -, -, -, e0, e1⟩ := index_facts t
  unfold iblk
  rw [View.read_apply]
  show V m c main_v5 (((cfg0.win 2).blk t).view.emb y) = _
  refine congrArg (transposedArr m c) (funext fun a => Fin.ext ?_)
  match a with
  | ⟨0, _⟩ => show win0_2.index t (0 : Fin 2) * 1024 + 1 * (y 0).val = (y 0).val; omega
  | ⟨1, _⟩ => show win0_2.index t (1 : Fin 2) * 4096 + 1 * (y 1).val = (y 1).val; omega

/-- What point `t` writes back is block `t` of `factored` of the four arguments. -/
theorem flushed_eq (c : Dev nD) (t : Fin cfg0.N) :
    (dats m 0 c).flushed 3 t
      = ((cfg0.win 3).blk t).view.read (Elt Ideal) (factored (argX m c) (argU m c) (argS m c) (argV m c)) := by
  rw [Cert.KernelIdeal.Value.flushed3]
  unfold out0_3
  rw [View.canon_unit_zero zero3]
  simp only [View.ld_unit_zero (S := S1x256x4096) zero3, View.ld_unit_zero (S := S4096x1024) zero2,
    View.ld_unit_zero (S := S1024x4096) zero2]
  obtain ⟨e0, e1, e2, e3, -, -, -, -⟩ := index_facts t
  funext j
  show k0_pay1 (iblk m c 0 t) (iblk m c 1 t) (iblk m c 2 t) j
    = factored (argX m c) (argU m c) (argS m c) (argV m c) (((cfg0.win 3).blk t).view.emb j)
  refine (stored_apply (iblk m c 0 t) (iblk m c 1 t) (iblk m c 2 t) j).trans ?_
  unfold factored
  have o0 : ((((cfg0.win 3).blk t).view.emb j) 0).val = win0_3.index t (0 : Fin 3) * 1 + 1 * (j 0).val := rfl
  have o1 : ((((cfg0.win 3).blk t).view.emb j) 1).val = win0_3.index t (1 : Fin 3) * 256 + 1 * (j 1).val := rfl
  have o2 : ((((cfg0.win 3).blk t).view.emb j) 2).val = win0_3.index t (2 : Fin 3) * 4096 + 1 * (j 2).val := rfl
  refine Finset.sum_congr rfl fun r _ => ?_
  have hU : (iblk m c 2 t : Vec Ideal S1024x4096 .bf16) (ix2 r (j 2)) = argU m c (ix2 ((((cfg0.win 3).blk t).view.emb j) 2) r) := by
    rw [transposed_block_at m c t]
    have eo : (ix2 r (j 2) : S1024x4096.Idx) = ix2 r ((((cfg0.win 3).blk t).view.emb j) 2) :=
      funext fun a => Fin.ext (by
        match a with
        | ⟨0, _⟩ => rfl
        | ⟨1, _⟩ => show (j 2).val = ((((cfg0.win 3).blk t).view.emb j) 2).val; rw [o2]; omega)
    rw [eo]
    exact transposed_at m c r _
  rw [hU]
  refine congrArg (· * argU m c (ix2 ((((cfg0.win 3).blk t).view.emb j) 2) r)) ?_
  refine Finset.sum_congr rfl fun i _ => ?_
  rw [scaled_block_at m c t, scaled_apply m c i r]
  refine congrArg (· * (argV m c (ix2 i r) * argS m c (ix1 r))) ?_
  refine x_block_at m c t (ix3 (j 0) (j 1) i) _ ?_ ?_ ?_
  · show win0_0.index t (0 : Fin 3) * 1 + 1 * (j 0).val = ((((cfg0.win 3).blk t).view.emb j) 0).val; rw [o0]; omega
  · show win0_0.index t (1 : Fin 3) * 256 + 1 * (j 1).val = ((((cfg0.win 3).blk t).view.emb j) 1).val; rw [o1]; omega
  · show win0_0.index t (2 : Fin 3) * 4096 + 1 * i.val = i.val; omega

/-- An index of the result array is in point `t`'s block iff each coordinate is in the block's range on its axis. -/
theorem mem_block (t : Fin cfg0.N) (i : S4x4096x4096.Idx) :
    i ∈ ((cfg0.win 3).blk t).view.set ↔ ∀ a : Fin 3, win0_3.index t a * S1x256x4096.size a ≤ (i a).val
      ∧ (i a).val < win0_3.index t a * S1x256x4096.size a + S1x256x4096.size a := by
  show i ∈ ((View.whole main_v6).slice (win0_3.rect t)).set ↔ _
  rw [View.set_slice_whole, Rect.mem_set_unit]
  exact Iff.rfl

/-- The 64 output blocks cover the result array. -/
theorem covered (i : S4x4096x4096.Idx) :
    ∃ t : Fin cfg0.N, (cfg0.win 3).flush t = true ∧ i ∈ ((cfg0.win 3).blk t).view.set := by
  have hi0 : (i 0).val < 4 := (i 0).isLt
  have hi1 : (i 1).val < 4096 := (i 1).isLt
  have hi2 : (i 2).val < 4096 := (i 2).isLt
  obtain ⟨t, ht⟩ := index_onto ⟨(i 0).val, hi0⟩ ⟨(i 1).val / 256, by omega⟩
  have q0 : win0_3.index t (0 : Fin 3) = (i 0).val := congrFun ht 0
  have q1 : win0_3.index t (1 : Fin 3) = (i 1).val / 256 := congrFun ht 1
  have q2 : win0_3.index t (2 : Fin 3) = 0 := congrFun ht 2
  refine ⟨t, flush0_3 t, ?_⟩
  rw [mem_block]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 4096 ≤ (i 2).val ∧ (i 2).val < win0_3.index t (2 : Fin 3) * 4096 + 4096; omega

/-- The result array after the run is `factored` of the four arguments. -/
theorem final (c : Dev nD) :
    (dats m 0 c).arrAt 3 cfg0.N = factored (argX m c) (argU m c) (argS m c) (argV m c) :=
  (dats m 0 c).arrAt_eq_of_cover 3 (factored (argX m c) (argU m c) (argS m c) (argV m c))
    (fun t _ => flushed_eq m c t) covered

/-- The kernel's run, read: the result array at `factored` of the arguments, the arguments unchanged. -/
theorem run : θ_run defs (onTc (τ := τ) (main (F := Ideal))) ⟨m, fun _ => 0, ρ⟩ fun r => ∀ c : Dev nD,
      r.2.mem ((c : Thread nD τ).loc main_v6) = factored (argX m c) (argU m c) (argS m c) (argV m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.LowRank.Blocks

end
-- ==== Proof.lean ====
/-
  A low-rank linear layer computed through its bottleneck equals the layer computed from its weight matrix.

  The arrays: x of shape [4, 4096, 4096], factors U and V of shape [4096, 1024], and s of length 1024. The reference
  forms the weight matrix W (o, i) = Σ r, (U (o, r) · s r) · V (i, r) and returns Σ i, x (b, t, i) · W (o, i). The
  kernel never forms W: the host scales the columns of V by s and transposes U, and each of the 4 × 16 grid points
  multiplies 256 rows of x into V · diag s and the result into Uᵀ, which is
  Σ r, (Σ i, x (b, t, i) · (V (i, r) · s r)) · U (o, r).

  On the extended reals — floats read as exact numbers, a change of float format the identity — these are the two
  bracketings of one product of three matrices. They agree entry by entry when every entry is a real number, which the
  precondition gives (the absolute value of every input entry is below +∞); at an infinity a factor could not be moved
  across a sum. The idealized kernel is the kernel's own text read on the extended reals, so there is nothing further
  to preserve. Each program's run terminates without a fault and leaves its arguments unchanged.
-/
import proofs.«111482_j70729521431228_2_alg».proof.Defs
import proofs.«111482_j70729521431228_2_alg».proof.Proof.Gen.Kernel
import proofs.«111482_j70729521431228_2_alg».proof.Proof.Gen.Kernel.Skeleton
import proofs.«111482_j70729521431228_2_alg».proof.Proof.Gen.Kernel.Launch
import proofs.«111482_j70729521431228_2_alg».proof.Proof.Gen.Kernel.Points
import proofs.«111482_j70729521431228_2_alg».proof.Proof.Gen.Kernel.Frame
import proofs.«111482_j70729521431228_2_alg».proof.Proof.Gen.KernelIdeal
import proofs.«111482_j70729521431228_2_alg».proof.Proof.Gen.KernelIdeal.Skeleton
import proofs.«111482_j70729521431228_2_alg».proof.Proof.Gen.KernelIdeal.Launch
import proofs.«111482_j70729521431228_2_alg».proof.Proof.Gen.KernelIdeal.Points
import proofs.«111482_j70729521431228_2_alg».proof.Proof.Gen.KernelIdeal.Frame
import proofs.«111482_j70729521431228_2_alg».proof.Proof.Gen.ReferenceIdeal
import proofs.«111482_j70729521431228_2_alg».proof.Proof.Gen.Pre_finite_inputs
import proofs.«111482_j70729521431228_2_alg».proof.Proof.Gen.KernelIdeal.Value
import proofs.«111482_j70729521431228_2_alg».proof.Proof.Gen.ReferenceIdeal.Run
import proofs.«111482_j70729521431228_2_alg».proof.Proof.Gen.ReferenceIdeal.Read
import proofs.«111482_j70729521431228_2_alg».proof.Proof.Spec
import proofs.«111482_j70729521431228_2_alg».proof.Proof.RefValue
import proofs.«111482_j70729521431228_2_alg».proof.Proof.Finite
import proofs.«111482_j70729521431228_2_alg».proof.Proof.Blocks
import Idealize.ShloMosaic.Adequacy
import Idealize.ShloMosaic.Init

noncomputable section

namespace Cert.Proof

open Idealize.ShloMosaic Idealize.ShloMosaic.TcCoe Idealize.SL.Sem
open Cert.LowRank Cert.LowRank.Prefix

/-- The kernel as printed runs and leaves its arguments unchanged. -/
theorem frame_kernel : Cert.frame_Kernel := fun m ρ _ => Cert.Kernel.Gen.frame m ρ

/-- So does the kernel read on the extended reals. -/
theorem frame_ideal : Cert.frame_KernelIdeal := fun m ρ _ => Cert.KernelIdeal.Gen.frame m ρ

/-- The reference runs and leaves its arguments unchanged: its run, with the result's value dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten to read it on the extended reals. -/
theorem preserves : Cert.preserves_Kernel_KernelIdeal := trivial

/-- From memories agreeing on the four arguments, both programs end with the result array at `lowRank` of the
    arguments: the reference as written, the kernel at `factored`, which is `lowRank` for real entries. -/
theorem algebraic : Cert.algebraic_KernelIdeal_ReferenceIdeal := by
  intro m ρ m' ρ' hpre hagree
  refine ⟨fun c => lowRank (argX m c) (argU m c) (argS m c) (argV m c), ?_, ?_⟩
  · refine (θ_run Cert.KernelIdeal.defs _ _).mono (fun r h c => ⟨(h c).1.trans ?_, (h c).2⟩) (Cert.LowRank.Blocks.run m ρ)
    obtain ⟨hx, hU, hs, hV⟩ := Cert.LowRank.Finite.entries_real _ _ _ _ (hpre c)
    exact factored_eq_lowRank _ _ _ _ hx hU hs hV
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v5_eq, Cert.LowRank.Reference.stage_eq,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
